-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S262144 : Shape := ⟨1, ![262144]⟩
abbrev S64 : Shape := ⟨1, ![64]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S262144 : S_.BroadcastsInDim S262144 (![] : Fin 0 → Fin S262144.rank)
  reducesTo_S262144_S_d0 : S262144.ReducesTo [0] S_
  bcast_S_S64 : S_.BroadcastsInDim S64 (![] : Fin 0 → Fin S64.rank)
  reducesTo_S64_S_d0 : S64.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S262144 .f32) (main_arg2 : FVec F S64 .f32) (main_arg3 : FVec F S4096x4096 .f32) (main_arg4 : FVec F S4096 .f32) (main_arg5 : IVec S4096x4096 32) (main_arg6 : IVec S4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S262144 : Shape := ⟨1, ![262144]⟩
abbrev S64 : Shape := ⟨1, ![64]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S4096x1 : Shape := ⟨2, ![4096, 1]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 31
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S262144, .f32⟩
  | .hbm, ⟨2, _⟩ => ⟨S64, .f32⟩
  | .hbm, ⟨3, _⟩ => ⟨S4096x4096, .f32⟩
  | .hbm, ⟨4, _⟩ => ⟨S4096, .f32⟩
  | .hbm, ⟨5, _⟩ => ⟨S4096x4096, .i32⟩
  | .hbm, ⟨6, _⟩ => ⟨S4096, .i32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096x1, .i32⟩
  | .hbm, ⟨15, _⟩ => ⟨S4096x4096, .f32⟩
  | .hbm, ⟨16, _⟩ => ⟨S4096x4096, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S8192x4096, .bf16⟩
  | .hbm, ⟨29, _⟩ => ⟨S4096x4096, .bf16⟩
  | .hbm, ⟨30, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_c_1 : Ref sig .tc := ⟨.hbm, 17, rfl⟩
abbrev main_call0_v8 : Ref sig .tc := ⟨.hbm, 18, rfl⟩
abbrev main_call0_v9 : Ref sig .tc := ⟨.hbm, 19, rfl⟩
abbrev main_call0_c_2 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S1x4096 : S4096.ShapeCasts S1x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  gather_S262144_S4096x4096x1_S4096x4096_n_0_n_n_0_2_1_wf : GatherDims.WF S262144 S4096x4096x1 S4096x4096 [] [0] [] [0] [] 2 ![1]
  gather_S64_S4096x1_S4096_n_0_n_n_0_1_1_wf : GatherDims.WF S64 S4096x1 S4096 [] [0] [] [0] [] 1 ![1]
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def gather_S262144_S4096x4096x1_S4096x4096_n_0_n_n_0_2_1 : GatherDims S262144 S4096x4096x1 S4096x4096 where
  offsetDims := []
  collapsedSliceDims := [0]
  operandBatchingDims := []
  startIndicesBatchingDims := []
  startIndexMap := [0]
  indexVectorDim := 2
  sliceSizes := ![1]
  wf := gather_S262144_S4096x4096x1_S4096x4096_n_0_n_n_0_2_1_wf
def gather_S64_S4096x1_S4096_n_0_n_n_0_1_1 : GatherDims S64 S4096x1 S4096 where
  offsetDims := []
  collapsedSliceDims := [0]
  operandBatchingDims := []
  startIndicesBatchingDims := []
  startIndexMap := [0]
  indexVectorDim := 1
  sliceSizes := ![1]
  wf := gather_S64_S4096x1_S4096_n_0_n_n_0_1_1_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_call0_v17) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S262144 : Shape := ⟨1, ![262144]⟩
abbrev S64 : Shape := ⟨1, ![64]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S4096x1 : Shape := ⟨2, ![4096, 1]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S262144, .f32⟩
  | .hbm, ⟨2, _⟩ => ⟨S64, .f32⟩
  | .hbm, ⟨3, _⟩ => ⟨S4096x4096, .f32⟩
  | .hbm, ⟨4, _⟩ => ⟨S4096, .f32⟩
  | .hbm, ⟨5, _⟩ => ⟨S4096x4096, .i32⟩
  | .hbm, ⟨6, _⟩ => ⟨S4096, .i32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096x1, .i32⟩
  | .hbm, ⟨15, _⟩ => ⟨S4096x4096, .f32⟩
  | .hbm, ⟨16, _⟩ => ⟨S4096x4096, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096, .f32⟩
  | .hbm, ⟨26, _⟩ => ⟨S4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S262144_S4096x4096x1_S4096x4096_n_0_n_n_0_2_1_wf : GatherDims.WF S262144 S4096x4096x1 S4096x4096 [] [0] [] [0] [] 2 ![1]
  gather_S64_S4096x1_S4096_n_0_n_n_0_1_1_wf : GatherDims.WF S64 S4096x1 S4096 [] [0] [] [0] [] 1 ![1]
  dot_S8192x4096_S4096x4096_S8192x4096_1_1_0_0_n_n_wf : DotDims.WF S8192x4096 S4096x4096 S8192x4096 [1] [1] [0] [0] [] []

variable [Facts₀]

def gather_S262144_S4096x4096x1_S4096x4096_n_0_n_n_0_2_1 : GatherDims S262144 S4096x4096x1 S4096x4096 where
  offsetDims := []
  collapsedSliceDims := [0]
  operandBatchingDims := []
  startIndicesBatchingDims := []
  startIndexMap := [0]
  indexVectorDim := 2
  sliceSizes := ![1]
  wf := gather_S262144_S4096x4096x1_S4096x4096_n_0_n_n_0_2_1_wf
def gather_S64_S4096x1_S4096_n_0_n_n_0_1_1 : GatherDims S64 S4096x1 S4096 where
  offsetDims := []
  collapsedSliceDims := [0]
  operandBatchingDims := []
  startIndicesBatchingDims := []
  startIndexMap := [0]
  indexVectorDim := 1
  sliceSizes := ![1]
  wf := gather_S64_S4096x1_S4096_n_0_n_n_0_1_1_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.CaseValues.lean ====
/-
  What one grid point of the K-blocked product leaves behind, read as values.

  The body keeps a running block of partial products in a scratch buffer that survives from one grid point to the
  next along the contraction axis. Every point adds to it the product of its block of rows of the left operand with
  its block of rows of the right operand (rows against rows: both are contracted on their last axis). The first
  point of a run along the contraction axis first overwrites the scratch with zeros, so there the running block
  starts from zero; at every later point it starts from what the point before left. The last point of the run, after
  adding its own product, also writes the running block plus the bias row into the output block.

  Three cases of the two conditions (first point, last point) occur: first and not last, neither, and last and not
  first. For each case the running block it leaves in the scratch, and for the last case the output block, is stated
  here as the body's own arithmetic applied to the blocks it was given — for any float instance.
-/
import proofs.«112684_j30528627540665_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- Every load and store of the body starts at the origin of its buffer. -/
theorem origin : (![0, 0] : Fin 2 → Nat) = fun _ => 0 := funext fun a => by fin_cases a <;> rfl

/-- First point of a run along the contraction axis: the scratch is overwritten with zeros, read back, and left at
    zeros plus this point's product. -/
theorem scratch_first (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) origin, View.readCov_unit_zero (S := S2048x1024) _ origin]
  simp only [View.readAt_eq_ld, harg3.read_unread, harg4.read_unread, View.ld_unit_zero (S := S2048x1024) origin,
    View.ld_unit_zero (S := S1024x1024) origin]

/-- A middle point: the scratch, holding `acc`, is left at `acc` plus this point's product. -/
theorem scratch_middle (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x1024 .bf16) (x1 : Vec F S1024x1024 .bf16) (x2 : Vec F S1x1024 .f32) (acc : Vec F S2048x1024 .f32) :
    sout0_B_0 c i arg3 harg3 arg4 harg4 arg5 harg5 arg6 harg6 arg7 harg7 hc0 hc1 x0 x1 x2 acc = k0_pay2 acc x0 x1 := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  rw [View.canon_unit_zero origin]
  simp only [View.readAt_eq_ld, harg7.read_unread, harg3.read_unread, harg4.read_unread,
    View.ld_unit_zero (S := S2048x1024) origin, View.ld_unit_zero (S := S1024x1024) origin]

/-- The last point of a run: the scratch is left as at a middle point, -/
theorem scratch_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (acc : Vec F S2048x1024 .f32) :
    sout0_C_0 c i arg3 harg3 arg4 harg4 arg5 harg5 arg6 harg6 arg7 harg7 hc0 hc1 x0 x1 x2 acc = k0_pay2 acc x0 x1 := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero origin]
  simp only [View.readAt_eq_ld, harg7.read_unread, harg3.read_unread, harg4.read_unread,
    View.ld_unit_zero (S := S2048x1024) origin, View.ld_unit_zero (S := S1024x1024) origin]

/-- and the output block is that running block plus the bias row. -/
theorem output_last (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x1024 .bf16) (x1 : Vec F S1024x1024 .bf16) (x2 : Vec F S1x1024 .f32) (acc : Vec F S2048x1024 .f32) :
    out0_C_3 c i arg3 harg3 arg4 harg4 arg5 harg5 arg6 harg6 arg7 harg7 hc0 hc1 x0 x1 x2 acc = k0_pay3 (k0_pay2 acc x0 x1) x2 := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero origin, View.readCov_unit_zero (S := S2048x1024) _ origin]
  simp only [View.readAt_eq_ld, harg7.read_unread, harg3.read_unread, harg4.read_unread, harg5.read_unread,
    View.ld_unit_zero (S := S2048x1024) origin, View.ld_unit_zero (S := S1024x1024) origin,
    View.ld_unit_zero (S := S1x1024) origin]

end Cert.KernelIdeal.CaseValues

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.BodyArithmetic.lean ====
/-
  The body's arithmetic at the exact instance, entry by entry.

  Over the extended reals the block the body adds at a grid point is, at row p and column q, the sum over the 1024
  positions r of the point's stretch of the contraction axis of (left block)(p, r) · (right block)(q, r): a product
  into a zero accumulator, both operands contracted on their last axis. The running block after the point is the
  running block before it plus that sum; the reset block is zero everywhere; and the output block is the running
  block plus the bias row's entry of the column.
-/
import proofs.«112684_j30528627540665_2_alg».proof.Proof.Gen.KernelIdeal.Skeleton
import proofs.«112684_j30528627540665_2_alg».proof.Proof.LibMatmul2d
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.BodyArithmetic

open Cert.KernelIdeal Cert.KernelIdeal.Gen

/-- The reset block is zero at every entry. -/
theorem reset_apply (y : S2048x1024.Idx) : k0_pay1 (F := Ideal) y = 0 := by
  unfold k0_pay1
  rw [shapeCast_self]
  exact Ideal.ofBits_zero_f32

/-- The running block after a point: what it held before plus the point's rows-against-rows product. -/
theorem accumulate_apply (acc : Vec Ideal S2048x1024 .f32) (a : Vec Ideal S2048x1024 .bf16) (b : Vec Ideal S1024x1024 .bf16)
    (p : Fin 2048) (q : Fin 1024) :
    k0_pay2 (F := Ideal) acc a b (ix2 p q) = acc (ix2 p q) + ∑ r : Fin 1024, a (ix2 p r) * b (ix2 q r) := by
  unfold k0_pay2
  rw [shapeCast_self, shapeCast_self, shapeCast_self, addf_apply,
    show dot_S2048x1024_S1024x1024_S2048x1024_1_1_0_0_n_n = DotDims.transposedRhs 2048 1024 1024 from rfl]
  exact congrArg (acc (ix2 p q) + ·) (Cert.LibMatmul2d.matmul_transposedRhs_apply a b p q)

/-- The output block: the running block plus the bias row's entry of the column. -/
theorem output_apply (acc : Vec Ideal S2048x1024 .f32) (bias : Vec Ideal S1x1024 .f32) (p : Fin 2048) (q : Fin 1024) :
    k0_pay3 (F := Ideal) acc bias (ix2 p q) = acc (ix2 p q) + bias (ix2 (0 : Fin 1) q) := by
  unfold k0_pay3
  rw [shapeCast_self, addf_apply]
  refine congrArg (acc (ix2 p q) + ·) ?_
  refine broadcastTo_apply _ _ _ _ fun a => ?_
  match a with
  | ⟨0, _⟩ => rfl
  | ⟨1, _⟩ => rfl

end Cert.KernelIdeal.BodyArithmetic

end
-- ==== Proof.RunningBlock.lean ====
/-
  The running block of partial products, as a sum.

  Along the contraction axis the grid visits four consecutive points for every output block; their positions in the
  grid's order are 4u, 4u+1, 4u+2, 4u+3. Point n adds to the running block, at row p and column q, the sum over the
  1024 positions r of its stretch of the contraction axis of (its block of the left operand)(p, r) · (its block of
  the right operand)(q, r); the first of the four starts from zero. So after point 4u+j the running block is
  0 + Σ_{s ≤ j} (the addend of point 4u+s), and at the last of the four the output block is that, with all four
  addends, plus the bias row's entry of the column.
-/
import proofs.«112684_j30528627540665_2_alg».proof.Proof.Gen.KernelIdeal.Value
import proofs.«112684_j30528627540665_2_alg».proof.Proof.CaseValues
import proofs.«112684_j30528627540665_2_alg».proof.Proof.BodyArithmetic

noncomputable section

open Idealize.ShloMosaic Idealize.ShloMosaic.TcCoe Idealize.SL.Sem Idealize.ShloMosaic.ValueIdx
open scoped BigOperators

namespace Cert.KernelIdeal.RunningBlock

open Cert.KernelIdeal Cert.KernelIdeal.Gen

/-- A block of rows of the left operand against a block of rows of the right operand: at row p and column q the sum
    over the block's 1024 contraction positions r of left (p, r) · right (q, r). -/
def rowsByRows (a : Vec Ideal S2048x1024 .bf16) (b : Vec Ideal S1024x1024 .bf16) (y : S2048x1024.Idx) : EReal :=
  ∑ r : Fin 1024, a (ix2 (y 0) r) * b (ix2 (y 1) r)

variable (m : (ℓ : Loc nD τ sig) → Buf (Elt Ideal) ℓ)

/-- What grid point `n` adds to the running block: its block of rows of the left operand against its block of rows of
    the right operand, over its stretch of the contraction axis (zero past the grid, where it is never used). -/
def addend (c : Dev nD) (n : ℕ) (y : S2048x1024.Idx) : EReal :=
  if h : n < cfg0.N then rowsByRows (iblk m c 0 ⟨n, h⟩) (iblk m c 1 ⟨n, h⟩) y else 0

theorem addend_of_lt (c : Dev nD) (n : ℕ) (h : n < cfg0.N) (p : Fin 2048) (q : Fin 1024) :
    addend m c n (ix2 p q) = rowsByRows (iblk m c 0 ⟨n, h⟩) (iblk m c 1 ⟨n, h⟩) (ix2 p q) := by
  unfold addend
  rw [dif_pos h]

/-- The first point of a run of four leaves zero plus its addend, whatever the scratch held. -/
theorem step_first (c : Dev nD) (n : ℕ) (h : n < cfg0.N) (h0 : n % 4 = 0) (acc : Vec Ideal S2048x1024 .f32)
    (y : S2048x1024.Idx) : Value.scAt0_0 m c n h acc y = 0 + addend m c n y := by
  have h1 : ¬n % 4 = 3 := by omega
  obtain ⟨p, q, rfl⟩ : ∃ (p : Fin 2048) (q : Fin 1024), y = ix2 p q := ⟨y 0, y 1, eq_ix2 y⟩
  unfold Value.scAt0_0
  rw [dif_pos h0, dif_neg h1, CaseValues.scratch_first, addend_of_lt m c n h]
  refine (BodyArithmetic.accumulate_apply _ _ _ p q).trans ?_
  rw [BodyArithmetic.reset_apply]
  rfl

/-- Every later point of the run leaves what the point before left plus its addend. -/
theorem step_later (c : Dev nD) (n : ℕ) (h : n < cfg0.N) (h0 : ¬n % 4 = 0) (acc : Vec Ideal S2048x1024 .f32)
    (y : S2048x1024.Idx) : Value.scAt0_0 m c n h acc y = acc y + addend m c n y := by
  obtain ⟨p, q, rfl⟩ : ∃ (p : Fin 2048) (q : Fin 1024), y = ix2 p q := ⟨y 0, y 1, eq_ix2 y⟩
  unfold Value.scAt0_0
  rw [dif_neg h0, addend_of_lt m c n h]
  by_cases h1 : n % 4 = 3
  · rw [dif_pos h1, CaseValues.scratch_last]
    exact BodyArithmetic.accumulate_apply _ _ _ p q
  · rw [dif_neg h1, CaseValues.scratch_middle]
    exact BodyArithmetic.accumulate_apply _ _ _ p q

/-- THE RUNNING BLOCK after point `t`: zero plus the addends of the run's points up to `t`. -/
theorem running_block (c : Dev nD) (t : Fin cfg0.N) (y : S2048x1024.Idx) :
    (outsAt0 m c t.val t.isLt).2 y
      = 0 + ∑ s ∈ Finset.range (t.val % 4 + 1), addend m c (4 * (t.val / 4) + s) y := by
  rw [Value.soutsAt0_0_eq m c t]
  exact Pipeline.accAt_add_apply _ _ (fun _ => (0 : EReal)) (addend m c) (4 * (t.val / 4)) 3
    (fun h i => step_first m c _ h (by omega) _ i)
    (fun n h acc i hlo hhi => step_later m c n h (by omega) acc i)
    (t.val % 4) (by omega) _ y

/-- THE OUTPUT BLOCK at the last point of a run of four: all four addends, plus the bias row's entry. -/
theorem output_block (c : Dev nD) (t : Fin cfg0.N) (h1 : t.val % 4 = 3) (p : Fin 2048) (q : Fin 1024) :
    (outsAt0 m c t.val t.isLt).1 (ix2 p q)
      = (0 + ∑ s ∈ Finset.range 4, addend m c (4 * (t.val / 4) + s) (ix2 p q))
        + (iblk m c 2 t : Vec Ideal S1x1024 .f32) (ix2 (0 : Fin 1) q) := by
  have h0 : ¬t.val % 4 = 0 := by omega
  have e : (outsAt0 m c t.val t.isLt).1
      = k0_pay3 (F := Ideal) (outsAt0 m c t.val t.isLt).2 (iblk m c 2 t) := by
    rw [outsAt0_C m c t h0 h1]
    dsimp only
    rw [CaseValues.output_last, CaseValues.scratch_last]
  rw [e]
  refine (BodyArithmetic.output_apply _ _ p q).trans ?_
  rw [running_block m c t, h1]

end Cert.KernelIdeal.RunningBlock

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.AffineSpec.lean ====
/-
  The result both programs compute, and the one law that joins them.

  For a left operand X of 8192 rows, a right operand W of 4096 rows — both with 4096 columns, the contraction
  axis — and a bias row B, the result at row r and column o is

      Σ_{k < 4096} X (r, k) · W (o, k)  +  B (0, o):

  every row of X against every row of W, plus the bias entry of the column. One program takes the sum whole. The
  other cuts the contraction axis into four stretches of 1024 positions, sums each stretch by itself and adds the
  four partial sums one after another onto zero. Addition of extended reals is commutative and associative, so the
  four partial sums add up to the whole sum: no entry needs to be finite.
-/
import Idealize.ShloMosaic.Lib.ValueIdx
import Idealize.ShloMosaic.PureOps.Ideal
import proofs.«112684_j30528627540665_2_alg».proof.Proof.LibBlockSum

noncomputable section

open Idealize.ShloMosaic Idealize.ShloMosaic.ValueIdx
open scoped BigOperators

namespace Cert.AffineSpec

/-- Rows of `X` against rows of `W`, plus the bias row: the result array, entry by entry. -/
def affineRows (X : (⟨2, ![8192, 4096]⟩ : Shape).Idx → EReal) (W : (⟨2, ![4096, 4096]⟩ : Shape).Idx → EReal)
    (B : (⟨2, ![1, 4096]⟩ : Shape).Idx → EReal) : (⟨2, ![8192, 4096]⟩ : Shape).Idx → EReal :=
  fun i => (∑ k : Fin 4096, X (ix2 (i 0) k) * W (ix2 (i 1) k)) + B (ix2 (0 : Fin 1) (i 1))

/-- The position on the contraction axis of entry `r` of stretch `s`. -/
def stretchPos (s : Fin 4) (r : Fin 1024) : Fin 4096 := ⟨1024 * s.val + r.val, by omega⟩

/-- Four stretches of 1024 terms, summed one stretch after another onto zero, are the whole sum of 4096 terms. -/
theorem sum_stretches (g : Fin 4096 → EReal) (f : ℕ → EReal)
    (hf : ∀ s : Fin 4, f s.val = ∑ r : Fin 1024, g (stretchPos s r)) :
    0 + ∑ s ∈ Finset.range 4, f s = ∑ k : Fin 4096, g k := by
  rw [zero_add]
  refine Cert.LibBlockSum.sum_range_blocks 4 1024 g f fun s => (hf s).trans ?_
  refine Finset.sum_congr rfl fun r _ => congrArg g (Fin.ext ?_)
  show 1024 * s.val + r.val = r.val + 1024 * s.val
  omega

end Cert.AffineSpec

end
-- ==== Proof.OutputArray.lean ====
/-
  The output array after the run: rows against rows plus the bias, at every entry.

  The grid has 64 points; point t works on block row t / 16 of the left operand and of the output, on block row
  (t / 4) mod 4 of the right operand, which is also the output's block column and the bias row's block, and on
  stretch t mod 4 of the contraction axis. Only the last point of each run of four writes its output block back.
  What it writes is, entry by entry, the four stretches' partial sums added onto zero plus the bias entry; the four
  partial sums are the whole contraction, so the block written is the block of the one whole-array result. The
  sixteen written blocks tile the output array.
-/
import proofs.«112684_j30528627540665_2_alg».proof.Proof.RunningBlock
import proofs.«112684_j30528627540665_2_alg».proof.Proof.AffineSpec

noncomputable section

open Idealize.ShloMosaic Idealize.ShloMosaic.TcCoe Idealize.SL.Sem Idealize.ShloMosaic.ValueIdx
open Idealize.ShloMosaic.Pipeline (Dat)
open scoped BigOperators

namespace Cert.KernelIdeal.OutputArray

open Cert.KernelIdeal Cert.KernelIdeal.Gen Cert.AffineSpec

variable (m : (ℓ : Loc nD τ sig) → Buf (Elt Ideal) ℓ) (ρ : Dev nD → PrngReg)

/-- Which block of each array a grid point works on, in closed form. -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The whole-array result over the three arrays the region is launched on. -/
def result (c : Dev nD) : S8192x4096.Idx → EReal :=
  affineRows (V m c main_call0_v17) (V m c main_call0_v18) (V m c main_call0_v16)

/-- What a writing point writes back is its block of the whole-array result. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have hN : cfg0.N = 64 := N_0
  have ht : t.val < 64 := lt_of_lt_of_eq t.isLt hN
  rw [Value.flushed3]
  funext j
  obtain ⟨p, q, rfl⟩ : ∃ (p : Fin 2048) (q : Fin 1024), j = ix2 p q := ⟨j 0, j 1, eq_ix2 j⟩
  show (outsAt0 m c t.val t.isLt).1 (ix2 p q) = result m c (((cfg0.win 3).blk t).view.emb (ix2 p q))
  rw [RunningBlock.output_block m c t h1 p q]
  unfold result affineRows
  obtain ⟨-, -, -, -, b0, b1, o0, o1⟩ := block_indices t
  refine congrArg₂ (· + ·) ?_ ?_
  · refine sum_stretches _ _ fun s => ?_
    have hs : s.val < 4 := s.isLt
    have hn : 4 * (t.val / 4) + s.val < cfg0.N :=
      lt_of_lt_of_eq (by omega : 4 * (t.val / 4) + s.val < 64) hN.symm
    obtain ⟨l0, l1, r0, r1, -, -, -, -⟩ := block_indices ⟨4 * (t.val / 4) + s.val, hn⟩
    have l0' : win0_0.index ⟨4 * (t.val / 4) + s.val, hn⟩ (0 : Fin 2) = (4 * (t.val / 4) + s.val) / 16 := l0
    have l1' : win0_0.index ⟨4 * (t.val / 4) + s.val, hn⟩ (1 : Fin 2) = (4 * (t.val / 4) + s.val) % 4 := l1
    have r0' : win0_1.index ⟨4 * (t.val / 4) + s.val, hn⟩ (0 : Fin 2) = (4 * (t.val / 4) + s.val) / 4 % 4 := r0
    have r1' : win0_1.index ⟨4 * (t.val / 4) + s.val, hn⟩ (1 : Fin 2) = (4 * (t.val / 4) + s.val) % 4 := r1
    show RunningBlock.addend m c (4 * (t.val / 4) + s.val) (ix2 p q) = _
    rw [RunningBlock.addend_of_lt m c _ hn]
    unfold RunningBlock.rowsByRows
    refine Finset.sum_congr rfl fun r _ => ?_
    refine congrArg₂ (· * ·) ?_ ?_
    · show V m c main_call0_v17 (((cfg0.win 0).blk ⟨4 * (t.val / 4) + s.val, hn⟩).view.emb (ix2 p r))
        = V m c main_call0_v17 (ix2 (((cfg0.win 3).blk t).view.emb (ix2 p q) 0) (stretchPos s r))
      refine congrArg _ (funext fun a => Fin.ext ?_)
      match a with
      | ⟨0, _⟩ =>
        show win0_0.index ⟨4 * (t.val / 4) + s.val, hn⟩ (0 : Fin 2) * 2048 + 1 * p.val
          = win0_3.index t (0 : Fin 2) * 2048 + 1 * p.val
        omega
      | ⟨1, _⟩ =>
        show win0_0.index ⟨4 * (t.val / 4) + s.val, hn⟩ (1 : Fin 2) * 1024 + 1 * r.val = 1024 * s.val + r.val
        omega
    · show V m c main_call0_v18 (((cfg0.win 1).blk ⟨4 * (t.val / 4) + s.val, hn⟩).view.emb (ix2 q r))
        = V m c main_call0_v18 (ix2 (((cfg0.win 3).blk t).view.emb (ix2 p q) 1) (stretchPos s r))
      refine congrArg _ (funext fun a => Fin.ext ?_)
      match a with
      | ⟨0, _⟩ =>
        show win0_1.index ⟨4 * (t.val / 4) + s.val, hn⟩ (0 : Fin 2) * 1024 + 1 * q.val
          = win0_3.index t (1 : Fin 2) * 1024 + 1 * q.val
        omega
      | ⟨1, _⟩ =>
        show win0_1.index ⟨4 * (t.val / 4) + s.val, hn⟩ (1 : Fin 2) * 1024 + 1 * r.val = 1024 * s.val + r.val
        omega
  · show V m c main_call0_v16 (((cfg0.win 2).blk t).view.emb (ix2 (0 : Fin 1) q))
      = V m c main_call0_v16 (ix2 (0 : Fin 1) (((cfg0.win 3).blk t).view.emb (ix2 p q) 1))
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 1024 + 1 * q.val = win0_3.index t (1 : Fin 2) * 1024 + 1 * q.val
      omega

/-- An entry of the output array is in a point's block iff each coordinate is in the block's range on its axis. -/
theorem mem_block (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v0).slice (win0_3.rect t)).set ↔ _
  rw [View.set_slice_whole, Rect.mem_set_unit]
  exact Iff.rfl

/-- Every entry (r, o) of the output array lies in the block written by the last point of the run of four that
    works on block row r / 2048 and block column o / 1024. -/
theorem covered (i : S8192x4096.Idx) :
    ∃ t : Fin cfg0.N, (cfg0.win 3).flush t = true ∧ i ∈ ((cfg0.win 3).blk t).view.set := by
  have hN : cfg0.N = 64 := N_0
  have hi0 : (i 0).val < 8192 := (i 0).isLt
  have hi1 : (i 1).val < 4096 := (i 1).isLt
  have hb : 16 * ((i 0).val / 2048) + 4 * ((i 1).val / 1024) + 3 < cfg0.N :=
    lt_of_lt_of_eq (by omega : 16 * ((i 0).val / 2048) + 4 * ((i 1).val / 1024) + 3 < 64) hN.symm
  obtain ⟨-, -, -, -, -, -, o0, o1⟩ := block_indices ⟨_, hb⟩
  have o0' : win0_3.index ⟨_, hb⟩ (0 : Fin 2) = (16 * ((i 0).val / 2048) + 4 * ((i 1).val / 1024) + 3) / 16 := o0
  have o1' : win0_3.index ⟨_, hb⟩ (1 : Fin 2) = (16 * ((i 0).val / 2048) + 4 * ((i 1).val / 1024) + 3) / 4 % 4 := o1
  refine ⟨⟨_, hb⟩, (flush0_3 _).mpr (by show (16 * ((i 0).val / 2048) + 4 * ((i 1).val / 1024) + 3) % 4 = 3; omega), ?_⟩
  rw [mem_block]
  intro a
  match a with
  | ⟨0, _⟩ =>
    show win0_3.index ⟨_, hb⟩ (0 : Fin 2) * 2048 ≤ (i 0).val ∧ (i 0).val < win0_3.index ⟨_, hb⟩ (0 : Fin 2) * 2048 + 2048
    omega
  | ⟨1, _⟩ =>
    show win0_3.index ⟨_, hb⟩ (1 : Fin 2) * 1024 ≤ (i 1).val ∧ (i 1).val < win0_3.index ⟨_, hb⟩ (1 : Fin 2) * 1024 + 1024
    omega

/-- So the output array ends holding the whole-array result. -/
theorem final (c : Dev nD) : (dats m 0 c).arrAt 3 cfg0.N = result m c :=
  (dats m 0 c).arrAt_eq_of_cover 3 (result m c) (flushed_eq m c) covered

/-- The run, read: the output array at the whole-array result of the three arrays the region is launched on, the
    arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.OutputArray

end
-- ==== Proof.HostArrays.lean ====
/-
  The three arrays the region is launched on, as functions of the program's arguments.

  Before the launch the host rebuilds the dense operands from the hashed tables. An index below zero is wrapped by
  the table's length, the table is read at the wrapped index, and the entry read is multiplied by the sign array's
  entry: that gives the 4096 × 4096 right operand from the long table and the 4096 bias entries from the short one.
  The left operand and the right operand are then handed over in a narrower float format, which at the exact
  instance changes nothing, and the bias vector is handed over as a one-row matrix.
-/
import proofs.«112684_j30528627540665_2_alg».proof.Proof.Gen.KernelIdeal.Frame
import Idealize.ShloMosaic.Lib.StableHlo.Run
import Idealize.ShloMosaic.Lib.Pipeline.Value
import Idealize.ShloMosaic.PureOps.Ideal

noncomputable section

open Idealize.ShloMosaic Idealize.ShloMosaic.TcCoe Idealize.SL.Sem

namespace Cert.KernelIdeal.HostArrays

open Cert.KernelIdeal Cert.KernelIdeal.Gen

variable (m : (ℓ : Loc nD τ sig) → Buf (Elt Ideal) ℓ)

/-- The right operand: the long table read at the wrapped indices, times the signs. -/
def weights (c : Dev nD) : FVec Ideal S4096x4096 .f32 :=
  mulf (Host.gather gather_S262144_S4096x4096x1_S4096x4096_n_0_n_n_0_2_1 (m ((c : Thread nD τ).loc main_arg1))
    (broadcastInDim S4096x4096x1 ![0, 1] bcast_S4096x4096_S4096x4096x1_0_1
      (select (cmpi .slt (m ((c : Thread nD τ).loc main_arg5)) (broadcastInDim S4096x4096 ![] bcast_S_S4096x4096 (constantI S_ 32 0#32)))
        (addi (m ((c : Thread nD τ).loc main_arg5)) (broadcastInDim S4096x4096 ![] bcast_S_S4096x4096 (constantI S_ 32 262144#32)))
        (m ((c : Thread nD τ).loc main_arg5)))))
    (m ((c : Thread nD τ).loc main_arg3))

/-- The bias: the short table read at the wrapped indices, times the signs. -/
def biasVec (c : Dev nD) : FVec Ideal S4096 .f32 :=
  mulf (Host.gather gather_S64_S4096x1_S4096_n_0_n_n_0_1_1 (m ((c : Thread nD τ).loc main_arg2))
    (broadcastInDim S4096x1 ![0] bcast_S4096_S4096x1_0
      (select (cmpi .slt (m ((c : Thread nD τ).loc main_arg6)) (broadcastInDim S4096 ![] bcast_S_S4096 (constantI S_ 32 0#32)))
        (addi (m ((c : Thread nD τ).loc main_arg6)) (broadcastInDim S4096 ![] bcast_S_S4096 (constantI S_ 32 64#32)))
        (m ((c : Thread nD τ).loc main_arg6)))))
    (m ((c : Thread nD τ).loc main_arg4))

/-- The left operand as launched is the first argument: the change of float format is the identity. -/
theorem left_eq (c : Dev nD) :
    (V m c main_call0_v17 : S8192x4096.Idx → EReal) = m ((c : Thread nD τ).loc main_arg0) := by
  dsimp only [Gen.V, Gen.hostOps0]
  after_results
  rfl

/-- The right operand as launched is the rebuilt weights. -/
theorem right_eq (c : Dev nD) : (V m c main_call0_v18 : S4096x4096.Idx → EReal) = weights m c := by
  dsimp only [Gen.V, Gen.hostOps0]
  after_results
  rfl

set_option maxHeartbeats 4000000 in
/-- The bias as launched is the rebuilt bias vector laid out as one row. -/
theorem bias_eq (c : Dev nD) :
    (V m c main_call0_v16 : S1x4096.Idx → EReal) = shapeCast S1x4096 (biasVec m c) shapeCasts_S4096_S1x4096 := by
  dsimp only [Gen.V, Gen.hostOps0]
  after_results
  rfl

end Cert.KernelIdeal.HostArrays

end
-- ==== Proof.ReferenceValue.lean ====
/-
  The reference's result, entry by entry: rows against rows plus the bias.

  The reference rebuilds the same two dense operands from the hashed tables, contracts every row of the first
  argument with every row of the rebuilt weights over all 4096 positions at once, and adds the rebuilt bias vector
  to every row of the product. Read at an entry this is the whole-array result of the specification, with the bias
  vector read as a one-row matrix.
-/
import proofs.«112684_j30528627540665_2_alg».proof.Proof.Gen.ReferenceIdeal.Read
import proofs.«112684_j30528627540665_2_alg».proof.Proof.AffineSpec

noncomputable section

open Idealize.ShloMosaic Idealize.ShloMosaic.ValueIdx
open scoped BigOperators

namespace Cert.ReferenceIdeal.RefValue

open Cert.ReferenceIdeal Cert.ReferenceIdeal.Read Cert.AffineSpec

/-- A vector of 4096 entries read as a matrix of one row. -/
def asRow (b : (⟨1, ![4096]⟩ : Shape).Idx → EReal) : (⟨2, ![1, 4096]⟩ : Shape).Idx → EReal := fun i => b (ix1 (i 1))

/-- The reference's last stage is the specification's result of its first argument, its rebuilt weights and its
    rebuilt bias. -/
theorem reference_eq (x0 : (⟨S8192x4096, .f32⟩ : BufTy).Contents (Elt Ideal)) (x1 : (⟨S262144, .f32⟩ : BufTy).Contents (Elt Ideal))
    (x2 : (⟨S64, .f32⟩ : BufTy).Contents (Elt Ideal)) (x3 : (⟨S4096x4096, .f32⟩ : BufTy).Contents (Elt Ideal))
    (x4 : (⟨S4096, .f32⟩ : BufTy).Contents (Elt Ideal)) (x5 : (⟨S4096x4096, .i32⟩ : BufTy).Contents (Elt Ideal))
    (x6 : (⟨S4096, .i32⟩ : BufTy).Contents (Elt Ideal)) :
    val_main_v19 (F := Ideal) x0 x1 x2 x3 x4 x5 x6
      = affineRows x0 (val_main_v7 (F := Ideal) x1 x3 x5) (asRow (val_main_v15 (F := Ideal) x2 x4 x6)) := by
  funext i
  rw [val_main_v19_apply, val_main_v16_apply, val_main_v18_apply, val_main_v17_apply]
  unfold affineRows asRow
  show (∑ k : Fin 4096, x0 (lidx_main_v16 i k) * val_main_v7 (F := Ideal) x1 x3 x5 (ridx_main_v16 i k))
      + val_main_v15 (F := Ideal) x2 x4 x6 (idx_main_v17 (idx_main_v18 i)) = _
  refine congrArg₂ (· + ·) (Finset.sum_congr rfl fun k _ => congrArg₂ (· * ·) (congrArg x0 ?_) (congrArg _ ?_)) (congrArg _ ?_)
  · funext a
    match a with
    | ⟨0, _⟩ => rfl
    | ⟨1, _⟩ => rfl
  · funext a
    match a with
    | ⟨0, _⟩ => rfl
    | ⟨1, _⟩ => rfl
  · funext a
    match a with
    | ⟨0, _⟩ => rfl

end Cert.ReferenceIdeal.RefValue

end
-- ==== Proof.lean ====
/-
  A linear layer over hashed weights: the grid-blocked kernel and the one-shot reference compute the same array.

  Both programs first rebuild a dense 4096 × 4096 weight matrix W and a bias vector b from two small tables (an index
  below zero wrapped by the table's length, the table read there, the entry times a sign), by the same host operations
  in the same order. The reference then returns, at row r and column o,

      Σ_{k < 4096} x (r, k) · W (o, k)  +  b (o).

  The kernel tiles the output into 4 × 4 blocks of 2048 × 1024 entries and cuts the contraction axis into four
  stretches of 1024. For each output block it visits the four stretches in order, keeping a running block: zero plus
  the first stretch's partial sums, then plus the second's, the third's and the fourth's; after the fourth it adds
  the bias entry of the column and writes the block out. (Its operands are handed over in a narrower float format,
  which over the extended reals is the identity.) Since addition of extended reals is associative and commutative,
  the four partial sums are the whole sum, with no condition on the entries: the finiteness of the inputs is never
  used. The sixteen written blocks tile the output, so the two result arrays agree entry by entry.

  The three frames are the generated runs; the idealization rewrote nothing, so there is nothing to preserve.
-/
import proofs.«112684_j30528627540665_2_alg».proof.Defs
import proofs.«112684_j30528627540665_2_alg».proof.Proof.Gen.Kernel
import proofs.«112684_j30528627540665_2_alg».proof.Proof.Gen.Kernel.Skeleton
import proofs.«112684_j30528627540665_2_alg».proof.Proof.Gen.Kernel.Launch
import proofs.«112684_j30528627540665_2_alg».proof.Proof.Gen.Kernel.Points
import proofs.«112684_j30528627540665_2_alg».proof.Proof.Gen.Kernel.Frame
import proofs.«112684_j30528627540665_2_alg».proof.Proof.Gen.KernelIdeal
import proofs.«112684_j30528627540665_2_alg».proof.Proof.Gen.KernelIdeal.Skeleton
import proofs.«112684_j30528627540665_2_alg».proof.Proof.Gen.KernelIdeal.Launch
import proofs.«112684_j30528627540665_2_alg».proof.Proof.Gen.KernelIdeal.Points
import proofs.«112684_j30528627540665_2_alg».proof.Proof.Gen.KernelIdeal.Frame
import proofs.«112684_j30528627540665_2_alg».proof.Proof.Gen.ReferenceIdeal
import proofs.«112684_j30528627540665_2_alg».proof.Proof.Gen.Pre_finite_inputs
import proofs.«112684_j30528627540665_2_alg».proof.Proof.Gen.KernelIdeal.Value
import proofs.«112684_j30528627540665_2_alg».proof.Proof.Gen.ReferenceIdeal.Run
import proofs.«112684_j30528627540665_2_alg».proof.Proof.Gen.ReferenceIdeal.Read
import proofs.«112684_j30528627540665_2_alg».proof.Proof.OutputArray
import proofs.«112684_j30528627540665_2_alg».proof.Proof.HostArrays
import proofs.«112684_j30528627540665_2_alg».proof.Proof.ReferenceValue
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's rebuilt weights are the reference's: the same host operations of the same three arguments. -/
theorem weights_same (m : (ℓ : Loc Cert.KernelIdeal.nD Cert.KernelIdeal.τ Cert.KernelIdeal.sig) → Buf (Elt Ideal) ℓ)
    (c : Dev Cert.KernelIdeal.nD) :
    Cert.KernelIdeal.HostArrays.weights m c
      = Cert.ReferenceIdeal.Read.val_main_v7 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) := rfl

/-- The kernel's bias row is the reference's rebuilt bias vector read as one row. -/
theorem bias_same (m : (ℓ : Loc Cert.KernelIdeal.nD Cert.KernelIdeal.τ Cert.KernelIdeal.sig) → Buf (Elt Ideal) ℓ)
    (c : Dev Cert.KernelIdeal.nD) :
    shapeCast Cert.KernelIdeal.S1x4096 (Cert.KernelIdeal.HostArrays.biasVec m c) Cert.KernelIdeal.Gen.shapeCasts_S4096_S1x4096
      = Cert.ReferenceIdeal.RefValue.asRow
          (Cert.ReferenceIdeal.Read.val_main_v15 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))) := by
  funext i
  obtain ⟨u, o, rfl⟩ : ∃ (u : Fin 1) (o : Fin 4096), i = ix2 u o := ⟨i 0, i 1, eq_ix2 i⟩
  exact shapeCast_a_1a_apply _ _ u o

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the output at rows of x against rows of the rebuilt weights plus the rebuilt bias. -/
theorem algebraic : Cert.algebraic_KernelIdeal_ReferenceIdeal := by
  intro m ρ m' ρ' _ hagree
  refine ⟨fun c => Cert.KernelIdeal.OutputArray.result m c, Cert.KernelIdeal.OutputArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v19_eq, Cert.ReferenceIdeal.RefValue.reference_eq, e0, e1, e2, e3, e4, e5, e6]
  show _ = Cert.KernelIdeal.OutputArray.result m c
  unfold Cert.KernelIdeal.OutputArray.result
  rw [Cert.KernelIdeal.HostArrays.left_eq, Cert.KernelIdeal.HostArrays.right_eq, Cert.KernelIdeal.HostArrays.bias_eq,
    weights_same, bias_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
